-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S128x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 85
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S512x128, .bf16⟩
  | .hbm, ⟨48, _⟩ => ⟨S128x64, .bf16⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .bf16⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | .hbm, ⟨122, _⟩ => ⟨S_, .f32⟩
  | .hbm, ⟨123, _⟩ => ⟨S50000x64, .f32⟩
  | .hbm, ⟨124, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its RESULT read: @main is four pipelined regions among stretches of host
  operations; every weakly fair execution terminates, nothing faulting, and the result array `main_v62` ends
  holding what the fold of the buffer contents through the segments leaves there — the contents at the last
  boundary — while the six argument arrays end as launched.  Nothing here says yet WHAT those contents are as a
  function of the arguments: that is read off the fold segment by segment elsewhere.
-/
import proofs.«119363_j44135083933971_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run of @main over its nine segments, the last thread state read against the final memory: the result
    buffer at the last boundary's contents, each argument walked back through the fold to its launch contents. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Entry.lean ====
/-
  What the kernel's first region finds in the buffers the rest of the program reads, each as a function of the
  argument arrays.  Before the first region @main runs three stretches of host operations: it splits the edge list
  into its source and destination rows and appends the self loops 0 … 49999 to each (`main_v3`, `main_v6`), counts
  each node's incoming edges by a scatter-add of ones (the degree), takes the reciprocal square root of the degree
  where it is positive and zero elsewhere (`main_v14`), gathers that at the source and at the destination of every
  edge, multiplies the two (the edge's normalisation, `main_v30` as a column), and rounds the two weight matrices to
  the narrower float format (`main_v31`, `main_v32`).  The reference program computes the same index lists and the
  same normalisation by the same operations, so each buffer here is literally the reference's stage of that name
  applied to the kernel's own arguments: reading the fold of host operations back one operation at a time gives the
  same term.  The normalisation is read in three steps, one per stretch — the degree's comparison and reciprocal square
  root; the choice between that and zero, whose operands pass through typed references (a transport along an equation
  between a buffer's declared type and the value's type, removed here one reference at a time); the gathers and the
  product — so that no step compares deep terms by unfolding them.
-/
import proofs.«119363_j44135083933971_1_alg».proof.Proof.Gen.KernelIdeal.Frame
import proofs.«119363_j44135083933971_1_alg».proof.Proof.RefRead

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo
open Cert.ReferenceIdeal.Read (val_main_v3 val_main_v6 val_main_v13 val_main_v14 val_main_cst_2 val_main_v15 val_main_v38)

variable (m : (ℓ : Loc nD τ sig) → Buf (Elt Ideal) ℓ) (ρ : Dev nD → PrngReg) (c : Dev nD)

/-! ## A value through a typed reference is the value

Each of these buffers' declared type IS the type the operation gives its value, so the transport is along an
equation between a type and itself. -/

theorem toBuf_main_v14 (h1 : main_v14.ty = ⟨S50000, .f32⟩) (h2 : main_v14.space ≠ .host) (h3 : main_v14.isScoped = false) (v : (⟨S50000, .f32⟩ : BufTy).Contents (Elt Ideal)) :
    (TRef.of (sig := sig) main_v14 h1 h2 h3).toBuf v = v := cast_eq _ v
theorem ofBuf_main_v14 (h1 : main_v14.ty = ⟨S50000, .f32⟩) (h2 : main_v14.space ≠ .host) (h3 : main_v14.isScoped = false) (v : (⟨S50000, .f32⟩ : BufTy).Contents (Elt Ideal)) :
    (TRef.of (sig := sig) main_v14 h1 h2 h3).ofBuf v = v := cast_eq _ v

theorem toBuf_main_v12 (h1 : main_v12.ty = ⟨S50000, .i1⟩) (h2 : main_v12.space ≠ .host) (h3 : main_v12.isScoped = false) (v : (⟨S50000, .i1⟩ : BufTy).Contents (Elt Ideal)) :
    (TRef.of (sig := sig) main_v12 h1 h2 h3).toBuf v = v := cast_eq _ v
theorem ofBuf_main_v12 (h1 : main_v12.ty = ⟨S50000, .i1⟩) (h2 : main_v12.space ≠ .host) (h3 : main_v12.isScoped = false) (v : (⟨S50000, .i1⟩ : BufTy).Contents (Elt Ideal)) :
    (TRef.of (sig := sig) main_v12 h1 h2 h3).ofBuf v = v := cast_eq _ v

theorem toBuf_main_v13 (h1 : main_v13.ty = ⟨S50000, .f32⟩) (h2 : main_v13.space ≠ .host) (h3 : main_v13.isScoped = false) (v : (⟨S50000, .f32⟩ : BufTy).Contents (Elt Ideal)) :
    (TRef.of (sig := sig) main_v13 h1 h2 h3).toBuf v = v := cast_eq _ v
theorem ofBuf_main_v13 (h1 : main_v13.ty = ⟨S50000, .f32⟩) (h2 : main_v13.space ≠ .host) (h3 : main_v13.isScoped = false) (v : (⟨S50000, .f32⟩ : BufTy).Contents (Elt Ideal)) :
    (TRef.of (sig := sig) main_v13 h1 h2 h3).ofBuf v = v := cast_eq _ v

theorem toBuf_main_call0_v1 (h1 : main_call0_v1.ty = ⟨S50000, .f32⟩) (h2 : main_call0_v1.space ≠ .host) (h3 : main_call0_v1.isScoped = false) (v : (⟨S50000, .f32⟩ : BufTy).Contents (Elt Ideal)) :
    (TRef.of (sig := sig) main_call0_v1 h1 h2 h3).toBuf v = v := cast_eq _ v
theorem ofBuf_main_call0_v1 (h1 : main_call0_v1.ty = ⟨S50000, .f32⟩) (h2 : main_call0_v1.space ≠ .host) (h3 : main_call0_v1.isScoped = false) (v : (⟨S50000, .f32⟩ : BufTy).Contents (Elt Ideal)) :
    (TRef.of (sig := sig) main_call0_v1 h1 h2 h3).ofBuf v = v := cast_eq _ v

theorem toBuf_main_call0_v0 (h1 : main_call0_v0.ty = ⟨S_, .f32⟩) (h2 : main_call0_v0.space ≠ .host) (h3 : main_call0_v0.isScoped = false) (v : (⟨S_, .f32⟩ : BufTy).Contents (Elt Ideal)) :
    (TRef.of (sig := sig) main_call0_v0 h1 h2 h3).toBuf v = v := cast_eq _ v
theorem ofBuf_main_call0_v0 (h1 : main_call0_v0.ty = ⟨S_, .f32⟩) (h2 : main_call0_v0.space ≠ .host) (h3 : main_call0_v0.isScoped = false) (v : (⟨S_, .f32⟩ : BufTy).Contents (Elt Ideal)) :
    (TRef.of (sig := sig) main_call0_v0 h1 h2 h3).ofBuf v = v := cast_eq _ v

theorem toBuf_main_cst_2 (h1 : main_cst_2.ty = ⟨S_, .f32⟩) (h2 : main_cst_2.space ≠ .host) (h3 : main_cst_2.isScoped = false) (v : (⟨S_, .f32⟩ : BufTy).Contents (Elt Ideal)) :
    (TRef.of (sig := sig) main_cst_2 h1 h2 h3).toBuf v = v := cast_eq _ v
theorem ofBuf_main_cst_2 (h1 : main_cst_2.ty = ⟨S_, .f32⟩) (h2 : main_cst_2.space ≠ .host) (h3 : main_cst_2.isScoped = false) (v : (⟨S_, .f32⟩ : BufTy).Contents (Elt Ideal)) :
    (TRef.of (sig := sig) main_cst_2 h1 h2 h3).ofBuf v = v := cast_eq _ v

/-! ## After the first stretch -/

/-- The source node of every edge, self loops appended. -/
theorem src1 : W1 m ρ c (Proc.devRef .tc main_v3) = val_main_v3 (F := Ideal) (m ((c.tc : Thread nD τ).loc main_arg1)) := by
  dsimp only [W1, W0, hostOps0]
  after_results_simp <;> rfl

/-- The destination node of every edge, self loops appended. -/
theorem dst1 : W1 m ρ c (Proc.devRef .tc main_v6) = val_main_v6 (F := Ideal) (m ((c.tc : Thread nD τ).loc main_arg1)) := by
  dsimp only [W1, W0, hostOps0]
  after_results_simp <;> rfl

/-- Which nodes have a positive degree. -/
theorem pos1 : W1 m ρ c (Proc.devRef .tc main_v12) = val_main_v13 (F := Ideal) (m ((c.tc : Thread nD τ).loc main_arg1)) := by
  dsimp only [W1, W0, hostOps0]
  after_results_simp <;> rfl

/-- The reciprocal square root of every node's degree. -/
theorem rsqrt1 : W1 m ρ c (Proc.devRef .tc main_v13) = val_main_v14 (F := Ideal) (m ((c.tc : Thread nD τ).loc main_arg1)) := by
  dsimp only [W1, W0, hostOps0]
  after_results_simp <;> rfl

/-- The zero that stands where the degree is not positive. -/
theorem zero1 : W1 m ρ c (Proc.devRef .tc main_cst_2) = val_main_cst_2 (F := Ideal) := by
  dsimp only [W1, W0, hostOps0]
  after_results_simp <;> rfl

/-! ## After the second stretch -/

theorem src2 : W2 m ρ c (Proc.devRef .tc main_v3) = val_main_v3 (F := Ideal) (m ((c.tc : Thread nD τ).loc main_arg1)) := by
  dsimp only [W2, W1, W0, hostOps0, hostOps0_1]
  after_results_simp <;> rfl

theorem dst2 : W2 m ρ c (Proc.devRef .tc main_v6) = val_main_v6 (F := Ideal) (m ((c.tc : Thread nD τ).loc main_arg1)) := by
  dsimp only [W2, W1, W0, hostOps0, hostOps0_1]
  after_results_simp <;> rfl

/-- The reciprocal square root of the degree where it is positive, zero elsewhere. -/
theorem dinv2 : W2 m ρ c (Proc.devRef .tc main_v14) = val_main_v15 (F := Ideal) (m ((c.tc : Thread nD τ).loc main_arg1)) := by
  have h12 := pos1 m ρ c
  have h13 := rsqrt1 m ρ c
  have hz := zero1 m ρ c
  show StableHlo.after hostOps0_1 (W1 m ρ c) (Proc.devRef .tc main_v14) = _
  generalize W1 m ρ c = U at h12 h13 hz ⊢
  dsimp only [hostOps0_1]
  after_results_simp
  rw [h12, h13, hz]
  rw [toBuf_main_v14, ofBuf_main_v12, ofBuf_main_v13, toBuf_main_call0_v1, ofBuf_main_call0_v1, toBuf_main_call0_v0,
    ofBuf_main_call0_v0, ofBuf_main_cst_2]
  rfl

/-! ## At the first region's entry -/

/-- The source node of every edge, self loops appended. -/
theorem src : W3 m ρ c (Proc.devRef .tc main_v3) = val_main_v3 (F := Ideal) (m ((c.tc : Thread nD τ).loc main_arg1)) := by
  dsimp only [W3, W2, W1, W0, hostOps0, hostOps0_1, hostOps0_2]
  after_results_simp <;> rfl

/-- The destination node of every edge, self loops appended. -/
theorem dst : W3 m ρ c (Proc.devRef .tc main_v6) = val_main_v6 (F := Ideal) (m ((c.tc : Thread nD τ).loc main_arg1)) := by
  dsimp only [W3, W2, W1, W0, hostOps0, hostOps0_1, hostOps0_2]
  after_results_simp <;> rfl

/-- Every edge's normalisation, as a column. -/
theorem norm : W3 m ρ c (Proc.devRef .tc main_v30) = val_main_v38 (F := Ideal) (m ((c.tc : Thread nD τ).loc main_arg1)) := by
  have h3 := src2 m ρ c
  have h6 := dst2 m ρ c
  have h14 := dinv2 m ρ c
  show StableHlo.after hostOps0_2 (W2 m ρ c) (Proc.devRef .tc main_v30) = _
  generalize W2 m ρ c = U at h3 h6 h14 ⊢
  dsimp only [hostOps0_2]
  after_results_simp
  rw [h3, h6, h14]
  rfl

/-- The first layer's weights, rounded to the narrower format. -/
theorem w1 : W3 m ρ c (Proc.devRef .tc main_v31)
    = truncf (F := Ideal) .bf16 (m ((c.tc : Thread nD τ).loc main_arg2)) bitsLt_bf16_f32 := by
  dsimp only [W3, W2, W1, W0, hostOps0, hostOps0_1, hostOps0_2]
  after_results_simp <;> rfl

/-- The second layer's weights, rounded to the narrower format. -/
theorem w2 : W3 m ρ c (Proc.devRef .tc main_v32)
    = truncf (F := Ideal) .bf16 (m ((c.tc : Thread nD τ).loc main_arg4)) bitsLt_bf16_f32 := by
  dsimp only [W3, W2, W1, W0, hostOps0, hostOps0_1, hostOps0_2]
  after_results_simp <;> rfl

/-- The node features are untouched by the host operations before the first region. -/
theorem x : W3 m ρ c (Proc.devRef .tc main_arg0) = m ((c.tc : Thread nD τ).loc main_arg0) := by
  dsimp only [W3, W2, W1, W0, hostOps0, hostOps0_1, hostOps0_2]
  after_results_simp <;> rfl

/-- So is the first bias. -/
theorem b1 : W3 m ρ c (Proc.devRef .tc main_arg3) = m ((c.tc : Thread nD τ).loc main_arg3) := by
  dsimp only [W3, W2, W1, W0, hostOps0, hostOps0_1, hostOps0_2]
  after_results_simp <;> rfl

/-- So is the second bias. -/
theorem b2 : W3 m ρ c (Proc.devRef .tc main_arg5) = m ((c.tc : Thread nD τ).loc main_arg5) := by
  dsimp only [W3, W2, W1, W0, hostOps0, hostOps0_1, hostOps0_2]
  after_results_simp <;> rfl

end Cert.KernelIdeal.Entry

end
-- ==== Proof.Spec.lean ====
/-
  The two whole-array functions the kernel's four regions compute, stated over literal rank-two shapes with no
  program in sight.  `rowsTimes a b` is the matrix product: entry (i, j) is the sum over k of a(i, k) · b(k, j) on the
  extended reals.  `addRowRelu a b` adds the one row b to every row of a and takes the larger of the result and the
  float whose bits are all zero: entry (i, j) is max (a(i, j) + b(0, j)) 0.
-/
import Mathlib
import Idealize.ShloMosaic.Lib.ValueIdx
import Idealize.ShloMosaic.PureOps.Ideal

noncomputable section

namespace Cert.Spec

open Idealize.ShloMosaic Idealize.ShloMosaic.ValueIdx

/-- The matrix product [M, K] × [K, N] → [M, N], entry by entry. -/
def rowsTimes {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (⟨(i 0).val, idx2_lt0 i⟩ : Fin M) k) * b (ix2 k (⟨(i 1).val, idx2_lt1 i⟩ : Fin N))

theorem rowsTimes_ix2 {M K N : Nat} (a : (⟨2, ![M, K]⟩ : Shape).Idx → EReal) (b : (⟨2, ![K, N]⟩ : Shape).Idx → EReal)
    (r : Fin M) (c : Fin N) : rowsTimes a b (ix2 r c) = ∑ k : Fin K, a (ix2 r k) * b (ix2 k c) := rfl

/-- A [1, N] row added to every row of an [M, N] array, then the maximum with zero, at any float instance. -/
def addRowRelu {F : FTy → Type} [FloatOps F] {M N : Nat} (a : (⟨2, ![M, N]⟩ : Shape).Idx → F .f32)
    (b : (⟨2, ![1, N]⟩ : Shape).Idx → F .f32) : (⟨2, ![M, N]⟩ : Shape).Idx → F .f32 :=
  fun i => FloatOps.maximumf (FloatOps.addf (a i) (b (ix2 (0 : Fin 1) (⟨(i 1).val, idx2_lt1 i⟩ : Fin N))))
    (FloatOps.ofBits .f32 0x00000000#32)

theorem addRowRelu_ix2 {F : FTy → Type} [FloatOps F] {M N : Nat} (a : (⟨2, ![M, N]⟩ : Shape).Idx → F .f32)
    (b : (⟨2, ![1, N]⟩ : Shape).Idx → F .f32) (r : Fin M) (c : Fin N) :
    addRowRelu a b (ix2 r c) = FloatOps.maximumf (FloatOps.addf (a (ix2 r c)) (b (ix2 (0 : Fin 1) c)))
      (FloatOps.ofBits .f32 0x00000000#32) := rfl

end Cert.Spec

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Bridge.lean ====
/-
  The two whole-array functions of the kernel's regions against the reference's own operations, at the ideal
  instance.  (1) The reference multiplies by one `dot_general` contracting axis 1 with axis 0: entry (i, j) is the sum
  over k of l(i, k) · r(k, j), which is `rowsTimes`; the kernel's right operand was first rounded to a narrower float
  format, which at the ideal instance changes nothing.  (2) The reference adds the bias by broadcasting the
  vector b to a [1, N] row and that row to all M rows, adds, and takes the maximum with a broadcast zero; the kernel
  reshapes b to [1, N] and lets its body broadcast the row.  Both read b(j) at entry (i, j), so both are
  `addRowRelu` of the reshaped vector.  (3) The reference computes the edges' normalisation twice, once per layer,
  by the same operations of the same edge list: the two columns are the same term.
-/
import proofs.«119363_j44135083933971_1_alg».proof.Proof.RefRead
import proofs.«119363_j44135083933971_1_alg».proof.Proof.Spec
import proofs.«119363_j44135083933971_1_alg».proof.Proof.LibDot
import Idealize.ShloMosaic.Lib.ValueLayout

set_option maxRecDepth 16384

noncomputable section

namespace Cert.ReferenceIdeal.Bridge

open Cert.ReferenceIdeal Cert.ReferenceIdeal.Gen Cert.ReferenceIdeal.Read
open Idealize.ShloMosaic Idealize.ShloMosaic.ValueIdx Cert.Spec

/-- The first layer's `dot_general` is a plain rows-by-columns product. -/
theorem plain1 : Cert.LibDot.Plain dot_S50000x512_S512x128_S50000x128_1_0_0_1_n_n where
  hrank := rfl
  hs := rfl
  hl0 := fun j k => by
    unfold DotDims.lhsIdx
    rw [dif_neg (show ¬(0 : Fin S50000x512.rank) ∈ dot_S50000x512_S512x128_S50000x128_1_0_0_1_n_n.lhsBatch by decide),
      dif_pos (show (0 : Fin S50000x512.rank) ∈ dot_S50000x512_S512x128_S50000x128_1_0_0_1_n_n.lhsNonContracting by decide)]
    rfl
  hl1 := fun j k => dot_S50000x512_S512x128_S50000x128_1_0_0_1_n_n.lhsIdx_val_of_single rfl j k
  hr0 := fun j k => dot_S50000x512_S512x128_S50000x128_1_0_0_1_n_n.rhsIdx_val_of_single rfl j k
  hr1 := fun j k => by
    unfold DotDims.rhsIdx
    rw [dif_neg (show ¬(1 : Fin S512x128.rank) ∈ dot_S50000x512_S512x128_S50000x128_1_0_0_1_n_n.rhsBatch by decide),
      dif_pos (show (1 : Fin S512x128.rank) ∈ dot_S50000x512_S512x128_S50000x128_1_0_0_1_n_n.rhsNonContracting by decide)]
    rfl

/-- So is the second layer's. -/
theorem plain2 : Cert.LibDot.Plain dot_S50000x128_S128x64_S50000x64_1_0_0_1_n_n where
  hrank := rfl
  hs := rfl
  hl0 := fun j k => by
    unfold DotDims.lhsIdx
    rw [dif_neg (show ¬(0 : Fin S50000x128.rank) ∈ dot_S50000x128_S128x64_S50000x64_1_0_0_1_n_n.lhsBatch by decide),
      dif_pos (show (0 : Fin S50000x128.rank) ∈ dot_S50000x128_S128x64_S50000x64_1_0_0_1_n_n.lhsNonContracting by decide)]
    rfl
  hl1 := fun j k => dot_S50000x128_S128x64_S50000x64_1_0_0_1_n_n.lhsIdx_val_of_single rfl j k
  hr0 := fun j k => dot_S50000x128_S128x64_S50000x64_1_0_0_1_n_n.rhsIdx_val_of_single rfl j k
  hr1 := fun j k => by
    unfold DotDims.rhsIdx
    rw [dif_neg (show ¬(1 : Fin S128x64.rank) ∈ dot_S50000x128_S128x64_S50000x64_1_0_0_1_n_n.rhsBatch by decide),
      dif_pos (show (1 : Fin S128x64.rank) ∈ dot_S50000x128_S128x64_S50000x64_1_0_0_1_n_n.rhsNonContracting by decide)]
    rfl

/-- Rounding to a narrower float format is the identity at the ideal instance. -/
theorem truncf_id {S : Shape} (x : FVec Ideal S .f32) (h : FTy.bits .bf16 < FTy.bits .f32) :
    truncf (F := Ideal) .bf16 x h = x := rfl

/-- The first layer's product: rows of the features times columns of the (rounded) weights is the reference's
    `dot_general` of the features and the weights. -/
theorem product1 (x0 : FVec Ideal S50000x512 .f32) (x2 : FVec Ideal S512x128 .f32) (h : FTy.bits .bf16 < FTy.bits .f32) :
    rowsTimes (M := 50000) (K := 512) (N := 128) x0 (truncf (F := Ideal) .bf16 x2 h) = val_main_v7 (F := Ideal) x0 x2 := by
  funext i
  obtain ⟨r, q, rfl⟩ : ∃ (r : Fin 50000) (q : Fin 128), i = ix2 r q := ⟨i 0, i 1, eq_ix2 i⟩
  unfold val_main_v7
  exact (Cert.LibDot.dotGeneral_ix2 plain1 none x0 x2 r q).symm

/-- The second layer's product, of ANY [50000, 128] left operand. -/
theorem product2 (y : FVec Ideal S50000x128 .f32) (x4 : FVec Ideal S128x64 .f32) (h : FTy.bits .bf16 < FTy.bits .f32) :
    rowsTimes (M := 50000) (K := 128) (N := 64) y (truncf (F := Ideal) .bf16 x4 h)
      = Host.dotGeneral dot_S50000x128_S128x64_S50000x64_1_0_0_1_n_n none y x4 := by
  funext i
  obtain ⟨r, q, rfl⟩ : ∃ (r : Fin 50000) (q : Fin 64), i = ix2 r q := ⟨i 0, i 1, eq_ix2 i⟩
  exact (Cert.LibDot.dotGeneral_ix2 plain2 none y x4 r q).symm

/-- The first layer's bias and positive part, of ANY [50000, 128] array: the kernel's reshaped bias row against the
    reference's two broadcasts and its broadcast zero. -/
theorem biasRelu1 (y : FVec Ideal S50000x128 .f32) (x3 : FVec Ideal S128 .f32) (h : S128.ShapeCasts S1x128) :
    addRowRelu (F := Ideal) (M := 50000) (N := 128) y (shapeCast S1x128 x3 h)
      = maximumf (addf y (val_main_v45 (F := Ideal) x3)) (val_main_call1_v0 (F := Ideal)) := by
  funext i
  obtain ⟨r, q, rfl⟩ : ∃ (r : Fin 50000) (q : Fin 128), i = ix2 r q := ⟨i 0, i 1, eq_ix2 i⟩
  rw [addRowRelu_ix2, shapeCast_a_1a_apply]
  show _ = FloatOps.maximumf (FloatOps.addf (y (ix2 r q)) (val_main_v45 (F := Ideal) x3 (ix2 r q))) (val_main_call1_v0 (F := Ideal) (ix2 r q))
  rw [val_main_v45_apply, val_main_v44_apply, val_main_call1_v0_apply, val_main_call1_cst_apply]
  exact congrArg (fun z => FloatOps.maximumf (FloatOps.addf (y (ix2 r q)) (x3 z)) (FloatOps.ofBits .f32 0x00000000#32))
    (funext fun a => Fin.ext (by match a with | ⟨0, _⟩ => rfl))

/-- The second layer's bias and positive part, of ANY [50000, 64] array. -/
theorem biasRelu2 (y : FVec Ideal S50000x64 .f32) (x5 : FVec Ideal S64 .f32) (h : S64.ShapeCasts S1x64) :
    addRowRelu (F := Ideal) (M := 50000) (N := 64) y (shapeCast S1x64 x5 h)
      = maximumf (addf y (val_main_v86 (F := Ideal) x5)) (val_main_call3_v0 (F := Ideal)) := by
  funext i
  obtain ⟨r, q, rfl⟩ : ∃ (r : Fin 50000) (q : Fin 64), i = ix2 r q := ⟨i 0, i 1, eq_ix2 i⟩
  rw [addRowRelu_ix2, shapeCast_a_1a_apply]
  show _ = FloatOps.maximumf (FloatOps.addf (y (ix2 r q)) (val_main_v86 (F := Ideal) x5 (ix2 r q))) (val_main_call3_v0 (F := Ideal) (ix2 r q))
  rw [val_main_v86_apply, val_main_v85_apply, val_main_call3_v0_apply, val_main_call3_cst_apply]
  exact congrArg (fun z => FloatOps.maximumf (FloatOps.addf (y (ix2 r q)) (x5 z)) (FloatOps.ofBits .f32 0x00000000#32))
    (funext fun a => Fin.ext (by match a with | ⟨0, _⟩ => rfl))

/-- The degree counted for the second layer is the degree counted for the first. -/
theorem degree_again (x1 : IVec S2x800000 32) : val_main_v52 (F := Ideal) x1 = val_main_v11 (F := Ideal) x1 := rfl

/-- So is the reciprocal square root of the degree where positive, zero elsewhere. -/
theorem dinv_again (x1 : IVec S2x800000 32) : val_main_v56 (F := Ideal) x1 = val_main_v15 (F := Ideal) x1 := by
  unfold val_main_v56 val_main_v15 val_main_v54 val_main_v13 val_main_v55 val_main_v14
  rw [degree_again]
  rfl

/-- So the edges' normalisation computed for the second layer is the first layer's, as a column. -/
theorem norm_again (x1 : IVec S2x800000 32) : val_main_v79 (F := Ideal) x1 = val_main_v38 (F := Ideal) x1 := by
  unfold val_main_v79 val_main_v38 val_main_v71 val_main_v30 val_main_v63 val_main_v22 val_main_v70 val_main_v29
  rw [dinv_again]
  rfl

end Cert.ReferenceIdeal.Bridge

end
-- ==== Proof.Region0.lean ====
/-
  Region 0 of the kernel is a tiled matrix product: the 50000-row array `main_arg0` is cut into 25 blocks of 2000 rows,
  the [512, 128] array `main_v31` is one block read whole at every grid point, and grid point t writes rows
  t·2000 … t·2000+1999 of `main_v33`.  At the ideal instance the body's rounding of its left operand to a narrower
  format is the identity and its product into a zero accumulator is the plain sum over the contracted index, so
  each written entry (t·2000+p, q) is the sum over k of main_arg0(t·2000+p, k) · main_v31(k, q): the block of ONE whole-array
  function, `rowsTimes`.  The 25 blocks tile the result (row r lies in block r / 2000), so after the region the
  whole result array IS that function of the two arrays as the region found them, whatever those were.
-/
import proofs.«119363_j44135083933971_1_alg».proof.Proof.Gen.KernelIdeal.Frame
import Idealize.ShloMosaic.Lib.Pipeline.Value
import proofs.«119363_j44135083933971_1_alg».proof.Proof.Spec
import proofs.«119363_j44135083933971_1_alg».proof.Proof.LibDot

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain rows-by-columns product: axis 1 of the left operand is
    contracted with axis 0 of the right one, nothing is batched. -/
theorem plain : Cert.LibDot.Plain dot_S2000x512_S512x128_S2000x128_1_0_0_1_n_n where
  hrank := rfl
  hs := rfl
  hl0 := fun j k => by
    unfold DotDims.lhsIdx
    rw [dif_neg (show ¬(0 : Fin S2000x512.rank) ∈ dot_S2000x512_S512x128_S2000x128_1_0_0_1_n_n.lhsBatch by decide),
      dif_pos (show (0 : Fin S2000x512.rank) ∈ dot_S2000x512_S512x128_S2000x128_1_0_0_1_n_n.lhsNonContracting by decide)]
    rfl
  hl1 := fun j k => dot_S2000x512_S512x128_S2000x128_1_0_0_1_n_n.lhsIdx_val_of_single rfl j k
  hr0 := fun j k => dot_S2000x512_S512x128_S2000x128_1_0_0_1_n_n.rhsIdx_val_of_single rfl j k
  hr1 := fun j k => by
    unfold DotDims.rhsIdx
    rw [dif_neg (show ¬(1 : Fin S512x128.rank) ∈ dot_S2000x512_S512x128_S2000x128_1_0_0_1_n_n.rhsBatch by decide),
      dif_pos (show (1 : Fin S512x128.rank) ∈ dot_S2000x512_S512x128_S2000x128_1_0_0_1_n_n.rhsNonContracting by decide)]
    rfl

/-- The body's one stored value at entry (p, q) of its block: the sum over k of the left block's (p, k) times the
    right block's (k, q). -/
theorem pay_apply (x : Vec Ideal S2000x512 .f32) (w : Vec Ideal S512x128 .bf16) (j : S2000x128.Idx) :
    k0_pay1 (F := Ideal) x w j
      = ∑ k : Fin 512, x (ix2 (⟨(j 0).val, idx2_lt0 j⟩ : Fin 2000) k) * w (ix2 k (⟨(j 1).val, idx2_lt1 j⟩ : Fin 128)) := by
  obtain ⟨p, q, rfl⟩ : ∃ (p : Fin 2000) (q : Fin 128), j = ix2 p q := ⟨j 0, j 1, eq_ix2 j⟩
  unfold k0_pay1
  refine (Cert.LibDot.matmul_ix2 plain none _ _ p q).trans ?_
  refine Finset.sum_congr rfl fun k _ => ?_
  rw [shapeCast_self]
  rfl

/-- Where the index maps send grid point t: the left operand's and the result's block t of rows, the right
    operand's one block (decided over the 25 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (p, k), is the array at row t·2000+p, column k. -/
theorem read_lhs (c : Dev nD) (t : Fin cfg0.N) (y : S2000x512.Idx) (i : S50000x512.Idx)
    (h0 : (i 0).val = t.val * 2000 + (y 0).val) (h1 : (i 1).val = (y 1).val) :
    iblk0 V c 0 t y = V c main_arg0 i := by
  show V c main_arg0 (((cfg0.win 0).blk t).view.emb y) = V c main_arg0 i
  refine congrArg _ (funext fun a => Fin.ext ?_)
  obtain ⟨e0, e1, -⟩ := idx_facts t
  match a with
  | ⟨0, _⟩ => show win0_0.index t (0 : Fin 2) * 2000 + 1 * (y 0).val = (i 0).val; omega
  | ⟨1, _⟩ => show win0_0.index t (1 : Fin 2) * 512 + 1 * (y 1).val = (i 1).val; omega

/-- The right operand's one block is the whole array. -/
theorem read_rhs (c : Dev nD) (t : Fin cfg0.N) (y : S512x128.Idx) (i : S512x128.Idx)
    (h0 : (i 0).val = (y 0).val) (h1 : (i 1).val = (y 1).val) :
    iblk0 V c 1 t y = V c main_v31 i := by
  show V c main_v31 (((cfg0.win 1).blk t).view.emb y) = V c main_v31 i
  refine congrArg _ (funext fun a => Fin.ext ?_)
  obtain ⟨-, -, e2, e3, -⟩ := idx_facts t
  match a with
  | ⟨0, _⟩ => show win0_1.index t (0 : Fin 2) * 512 + 1 * (y 0).val = (i 0).val; omega
  | ⟨1, _⟩ => show win0_1.index t (1 : Fin 2) * 128 + 1 * (y 1).val = (i 1).val; omega

/-- WHAT POINT t WRITES BACK is block t of the product of the two arrays as the region finds them. -/
theorem flushed_eq (c : Dev nD) (t : Fin cfg0.N) :
    (dat0 (F := Ideal) V c).flushed 2 t
      = ((cfg0.win 2).blk t).view.read (Elt Ideal) (rowsTimes (M := 50000) (K := 512) (N := 128) (V c main_arg0) (V c main_v31)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨-, -, -, -, e4, e5⟩ := idx_facts t
  funext j
  refine (pay_apply (iblk0 V c 0 t) (iblk0 V c 1 t) j).trans ?_
  show _ = rowsTimes (M := 50000) (K := 512) (N := 128) (V c main_arg0) (V c main_v31) (((cfg0.win 2).blk t).view.emb j)
  unfold rowsTimes
  refine Finset.sum_congr rfl fun k _ => ?_
  have hj0 : (j 0).val < 2000 := (j 0).isLt
  have hj1 : (j 1).val < 128 := (j 1).isLt
  have hr : ((((cfg0.win 2).blk t).view.emb j) 0).val = t.val * 2000 + (j 0).val := by
    show win0_2.index t (0 : Fin 2) * 2000 + 1 * (j 0).val = _; omega
  have hc : ((((cfg0.win 2).blk t).view.emb j) 1).val = (j 1).val := by
    show win0_2.index t (1 : Fin 2) * 128 + 1 * (j 1).val = _; omega
  have e1 := read_lhs V c t (ix2 (⟨(j 0).val, hj0⟩ : Fin 2000) k)
    (ix2 ⟨((((cfg0.win 2).blk t).view.emb j) 0).val, idx2_lt0 _⟩ k) hr rfl
  have e2 := read_rhs V c t (ix2 k (⟨(j 1).val, hj1⟩ : Fin 128))
    (ix2 k ⟨((((cfg0.win 2).blk t).view.emb j) 1).val, idx2_lt1 _⟩) rfl hc
  rw [e1, e2]

/-- An index of the result is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v33).slice (win0_2.rect t)).set ↔ _
  rw [View.set_slice_whole, Rect.mem_set_unit]
  exact Iff.rfl

/-- The blocks tile the result: row r lies in the block of point r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  have hlt : (i 0).val / 2000 < cfg0.N := by show (i 0).val / 2000 < grid0.N; omega
  refine ⟨⟨(i 0).val / 2000, hlt⟩, flush0_2 _, ?_⟩
  rw [mem_blk]
  obtain ⟨-, -, -, -, e4, e5⟩ := idx_facts ⟨(i 0).val / 2000, hlt⟩
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    rw [e5]; omega

/-- THE RESULT ARRAY after the region: the matrix product of the two operand arrays as the region found them. -/
theorem arr (c : Dev nD) :
    (dat0 (F := Ideal) V c).arrAt 2 cfg0.N = rowsTimes (M := 50000) (K := 512) (N := 128) (V c main_arg0) (V c main_v31) :=
  (dat0 (F := Ideal) V c).arrAt_eq_of_cover 2 _ (fun t _ => flushed_eq V c t) cover

end Cert.KernelIdeal.Region0

end
-- ==== Proof.Region1.lean ====
/-
  Region 1 of the kernel adds a bias row and takes the positive part: the 50000-row array `main_v45` is cut into 25
  blocks of 2000 rows, the [1, 128] array `main_v46` is one block read whole at every grid point, and grid point t
  writes rows t·2000 … t·2000+1999 of `main_v47`.  The body broadcasts the row over the block's rows, adds, and takes
  the maximum with the zero float, so each written entry (t·2000+p, q) is max (main_v45(t·2000+p, q) + main_v46(0, q)) 0: the
  block of ONE whole-array function, `addRowRelu`.  The 25 blocks tile the result (row r lies in block r / 2000),
  so after the region the whole result array IS that function of the two arrays as the region found them.
  Nothing here depends on the float instance beyond the operations' names; it is stated at the ideal one.
-/
import proofs.«119363_j44135083933971_1_alg».proof.Proof.Gen.KernelIdeal.Frame
import Idealize.ShloMosaic.Lib.Pipeline.Value
import Idealize.ShloMosaic.Lib.ValueLayout
import proofs.«119363_j44135083933971_1_alg».proof.Proof.Spec

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's one stored value at entry (p, q) of its block: the larger of block(p, q) + row(0, q) and zero. -/
theorem pay_apply (x : FVec Ideal S2000x128 .f32) (b : FVec Ideal S1x128 .f32) (j : S2000x128.Idx) :
    k1_pay1 (F := Ideal) x b j
      = FloatOps.maximumf (FloatOps.addf (x j) (b (ix2 (0 : Fin 1) (⟨(j 1).val, idx2_lt1 j⟩ : Fin 128))))
          (FloatOps.ofBits .f32 0x00000000#32) := by
  obtain ⟨p, q, rfl⟩ : ∃ (p : Fin 2000) (q : Fin 128), j = ix2 p q := ⟨j 0, j 1, eq_ix2 j⟩
  unfold k1_pay1
  rw [shapeCast_self, shapeCast_self]
  show FloatOps.maximumf (F := Ideal) (FloatOps.addf (x (ix2 p q)) (broadcastTo S2000x128 b broadcasts_S1x128_S2000x128 (ix2 p q)))
    (FloatOps.ofBits .f32 0x00000000#32) = _
  rw [broadcastTo_1b_ab_apply]

/-- Where the index maps send grid point t: the first operand's and the result's block t of rows, the row
    operand's one block (decided over the 25 points). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first operand's block at point t, at (p, q), is the array at row t·2000+p, column q. -/
theorem read_arr (c : Dev nD) (t : Fin cfg1.N) (y : S2000x128.Idx) (i : S50000x128.Idx)
    (h0 : (i 0).val = t.val * 2000 + (y 0).val) (h1 : (i 1).val = (y 1).val) :
    iblk1 V c 0 t y = V c main_v45 i := by
  show V c main_v45 (((cfg1.win 0).blk t).view.emb y) = V c main_v45 i
  refine congrArg _ (funext fun a => Fin.ext ?_)
  obtain ⟨e0, e1, -⟩ := idx_facts t
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- The row operand's one block is the whole [1, 128] array. -/
theorem read_row (c : Dev nD) (t : Fin cfg1.N) (y : S1x128.Idx) (i : S1x128.Idx)
    (h0 : (i 0).val = (y 0).val) (h1 : (i 1).val = (y 1).val) :
    iblk1 V c 1 t y = V c main_v46 i := by
  show V c main_v46 (((cfg1.win 1).blk t).view.emb y) = V c main_v46 i
  refine congrArg _ (funext fun a => Fin.ext ?_)
  obtain ⟨-, -, e2, e3, -⟩ := idx_facts t
  match a with
  | ⟨0, _⟩ => show win1_1.index t (0 : Fin 2) * 1 + 1 * (y 0).val = (i 0).val; omega
  | ⟨1, _⟩ => show win1_1.index t (1 : Fin 2) * 128 + 1 * (y 1).val = (i 1).val; omega

/-- WHAT POINT t WRITES BACK is block t of `addRowRelu` of the two arrays as the region finds them. -/
theorem flushed_eq (c : Dev nD) (t : Fin cfg1.N) :
    (dat1 (F := Ideal) V c).flushed 2 t
      = ((cfg1.win 2).blk t).view.read (Elt Ideal) (addRowRelu (F := Ideal) (M := 50000) (N := 128) (V c main_v45) (V c main_v46)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨-, -, -, -, e4, e5⟩ := idx_facts t
  funext j
  refine (pay_apply (iblk1 V c 0 t) (iblk1 V c 1 t) j).trans ?_
  show _ = addRowRelu (F := Ideal) (M := 50000) (N := 128) (V c main_v45) (V c main_v46) (((cfg1.win 2).blk t).view.emb j)
  unfold addRowRelu
  have hj0 : (j 0).val < 2000 := (j 0).isLt
  have hj1 : (j 1).val < 128 := (j 1).isLt
  have hr : ((((cfg1.win 2).blk t).view.emb j) 0).val = t.val * 2000 + (j 0).val := by
    show win1_2.index t (0 : Fin 2) * 2000 + 1 * (j 0).val = _; omega
  have hc : ((((cfg1.win 2).blk t).view.emb j) 1).val = (j 1).val := by
    show win1_2.index t (1 : Fin 2) * 128 + 1 * (j 1).val = _; omega
  have e1 := read_arr V c t j (((cfg1.win 2).blk t).view.emb j) hr hc
  have e2 := read_row V c t (ix2 (0 : Fin 1) (⟨(j 1).val, hj1⟩ : Fin 128))
    (ix2 (0 : Fin 1) ⟨((((cfg1.win 2).blk t).view.emb j) 1).val, idx2_lt1 _⟩) rfl hc
  rw [e1, e2]

/-- An index of the result is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v47).slice (win1_2.rect t)).set ↔ _
  rw [View.set_slice_whole, Rect.mem_set_unit]
  exact Iff.rfl

/-- The blocks tile the result: row r lies in the block of point r / 2000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  have hlt : (i 0).val / 2000 < cfg1.N := by show (i 0).val / 2000 < grid1.N; omega
  refine ⟨⟨(i 0).val / 2000, hlt⟩, flush1_2 _, ?_⟩
  rw [mem_blk]
  obtain ⟨-, -, -, -, e4, e5⟩ := idx_facts ⟨(i 0).val / 2000, hlt⟩
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hlt⟩ (1 : Fin 2) * 128 ≤ (i 1).val
      ∧ (i 1).val < win1_2.index ⟨(i 0).val / 2000, hlt⟩ (1 : Fin 2) * 128 + 128
    rw [e5]; omega

/-- THE RESULT ARRAY after the region: the row added to every row of the first array, then the positive part. -/
theorem arr (c : Dev nD) :
    (dat1 (F := Ideal) V c).arrAt 2 cfg1.N = addRowRelu (F := Ideal) (M := 50000) (N := 128) (V c main_v45) (V c main_v46) :=
  (dat1 (F := Ideal) V c).arrAt_eq_of_cover 2 _ (fun t _ => flushed_eq V c t) cover

end Cert.KernelIdeal.Region1

end
-- ==== Proof.Region2.lean ====
/-
  Region 2 of the kernel is a tiled matrix product: the 50000-row array `main_v47` is cut into 25 blocks of 2000 rows,
  the [128, 64] array `main_v32` is one block read whole at every grid point, and grid point t writes rows
  t·2000 … t·2000+1999 of `main_v48`.  At the ideal instance the body's rounding of its left operand to a narrower
  format is the identity and its product into a zero accumulator is the plain sum over the contracted index, so
  each written entry (t·2000+p, q) is the sum over k of main_v47(t·2000+p, k) · main_v32(k, q): the block of ONE whole-array
  function, `rowsTimes`.  The 25 blocks tile the result (row r lies in block r / 2000), so after the region the
  whole result array IS that function of the two arrays as the region found them, whatever those were.
-/
import proofs.«119363_j44135083933971_1_alg».proof.Proof.Gen.KernelIdeal.Frame
import Idealize.ShloMosaic.Lib.Pipeline.Value
import proofs.«119363_j44135083933971_1_alg».proof.Proof.Spec
import proofs.«119363_j44135083933971_1_alg».proof.Proof.LibDot

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain rows-by-columns product: axis 1 of the left operand is
    contracted with axis 0 of the right one, nothing is batched. -/
theorem plain : Cert.LibDot.Plain dot_S2000x128_S128x64_S2000x64_1_0_0_1_n_n where
  hrank := rfl
  hs := rfl
  hl0 := fun j k => by
    unfold DotDims.lhsIdx
    rw [dif_neg (show ¬(0 : Fin S2000x128.rank) ∈ dot_S2000x128_S128x64_S2000x64_1_0_0_1_n_n.lhsBatch by decide),
      dif_pos (show (0 : Fin S2000x128.rank) ∈ dot_S2000x128_S128x64_S2000x64_1_0_0_1_n_n.lhsNonContracting by decide)]
    rfl
  hl1 := fun j k => dot_S2000x128_S128x64_S2000x64_1_0_0_1_n_n.lhsIdx_val_of_single rfl j k
  hr0 := fun j k => dot_S2000x128_S128x64_S2000x64_1_0_0_1_n_n.rhsIdx_val_of_single rfl j k
  hr1 := fun j k => by
    unfold DotDims.rhsIdx
    rw [dif_neg (show ¬(1 : Fin S128x64.rank) ∈ dot_S2000x128_S128x64_S2000x64_1_0_0_1_n_n.rhsBatch by decide),
      dif_pos (show (1 : Fin S128x64.rank) ∈ dot_S2000x128_S128x64_S2000x64_1_0_0_1_n_n.rhsNonContracting by decide)]
    rfl

/-- The body's one stored value at entry (p, q) of its block: the sum over k of the left block's (p, k) times the
    right block's (k, q). -/
theorem pay_apply (x : Vec Ideal S2000x128 .f32) (w : Vec Ideal S128x64 .bf16) (j : S2000x64.Idx) :
    k2_pay1 (F := Ideal) x w j
      = ∑ k : Fin 128, x (ix2 (⟨(j 0).val, idx2_lt0 j⟩ : Fin 2000) k) * w (ix2 k (⟨(j 1).val, idx2_lt1 j⟩ : Fin 64)) := by
  obtain ⟨p, q, rfl⟩ : ∃ (p : Fin 2000) (q : Fin 64), j = ix2 p q := ⟨j 0, j 1, eq_ix2 j⟩
  unfold k2_pay1
  refine (Cert.LibDot.matmul_ix2 plain none _ _ p q).trans ?_
  refine Finset.sum_congr rfl fun k _ => ?_
  rw [shapeCast_self, shapeCast_self]
  rfl

/-- Where the index maps send grid point t: the left operand's and the result's block t of rows, the right
    operand's one block (decided over the 25 points). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, at (p, k), is the array at row t·2000+p, column k. -/
theorem read_lhs (c : Dev nD) (t : Fin cfg2.N) (y : S2000x128.Idx) (i : S50000x128.Idx)
    (h0 : (i 0).val = t.val * 2000 + (y 0).val) (h1 : (i 1).val = (y 1).val) :
    iblk2 V c 0 t y = V c main_v47 i := by
  show V c main_v47 (((cfg2.win 0).blk t).view.emb y) = V c main_v47 i
  refine congrArg _ (funext fun a => Fin.ext ?_)
  obtain ⟨e0, e1, -⟩ := idx_facts t
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The right operand's one block is the whole array. -/
theorem read_rhs (c : Dev nD) (t : Fin cfg2.N) (y : S128x64.Idx) (i : S128x64.Idx)
    (h0 : (i 0).val = (y 0).val) (h1 : (i 1).val = (y 1).val) :
    iblk2 V c 1 t y = V c main_v32 i := by
  show V c main_v32 (((cfg2.win 1).blk t).view.emb y) = V c main_v32 i
  refine congrArg _ (funext fun a => Fin.ext ?_)
  obtain ⟨-, -, e2, e3, -⟩ := idx_facts t
  match a with
  | ⟨0, _⟩ => show win2_1.index t (0 : Fin 2) * 128 + 1 * (y 0).val = (i 0).val; omega
  | ⟨1, _⟩ => show win2_1.index t (1 : Fin 2) * 64 + 1 * (y 1).val = (i 1).val; omega

/-- WHAT POINT t WRITES BACK is block t of the product of the two arrays as the region finds them. -/
theorem flushed_eq (c : Dev nD) (t : Fin cfg2.N) :
    (dat2 (F := Ideal) V c).flushed 2 t
      = ((cfg2.win 2).blk t).view.read (Elt Ideal) (rowsTimes (M := 50000) (K := 128) (N := 64) (V c main_v47) (V c main_v32)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨-, -, -, -, e4, e5⟩ := idx_facts t
  funext j
  refine (pay_apply (iblk2 V c 0 t) (iblk2 V c 1 t) j).trans ?_
  show _ = rowsTimes (M := 50000) (K := 128) (N := 64) (V c main_v47) (V c main_v32) (((cfg2.win 2).blk t).view.emb j)
  unfold rowsTimes
  refine Finset.sum_congr rfl fun k _ => ?_
  have hj0 : (j 0).val < 2000 := (j 0).isLt
  have hj1 : (j 1).val < 64 := (j 1).isLt
  have hr : ((((cfg2.win 2).blk t).view.emb j) 0).val = t.val * 2000 + (j 0).val := by
    show win2_2.index t (0 : Fin 2) * 2000 + 1 * (j 0).val = _; omega
  have hc : ((((cfg2.win 2).blk t).view.emb j) 1).val = (j 1).val := by
    show win2_2.index t (1 : Fin 2) * 64 + 1 * (j 1).val = _; omega
  have e1 := read_lhs V c t (ix2 (⟨(j 0).val, hj0⟩ : Fin 2000) k)
    (ix2 ⟨((((cfg2.win 2).blk t).view.emb j) 0).val, idx2_lt0 _⟩ k) hr rfl
  have e2 := read_rhs V c t (ix2 k (⟨(j 1).val, hj1⟩ : Fin 64))
    (ix2 k ⟨((((cfg2.win 2).blk t).view.emb j) 1).val, idx2_lt1 _⟩) rfl hc
  rw [e1, e2]

/-- An index of the result is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v48).slice (win2_2.rect t)).set ↔ _
  rw [View.set_slice_whole, Rect.mem_set_unit]
  exact Iff.rfl

/-- The blocks tile the result: row r lies in the block of point r / 2000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 25 := N_2
  have hlt : (i 0).val / 2000 < cfg2.N := by show (i 0).val / 2000 < grid2.N; omega
  refine ⟨⟨(i 0).val / 2000, hlt⟩, flush2_2 _, ?_⟩
  rw [mem_blk]
  obtain ⟨-, -, -, -, e4, e5⟩ := idx_facts ⟨(i 0).val / 2000, hlt⟩
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 64 ≤ (i 1).val
      ∧ (i 1).val < win2_2.index ⟨(i 0).val / 2000, hlt⟩ (1 : Fin 2) * 64 + 64
    rw [e5]; omega

/-- THE RESULT ARRAY after the region: the matrix product of the two operand arrays as the region found them. -/
theorem arr (c : Dev nD) :
    (dat2 (F := Ideal) V c).arrAt 2 cfg2.N = rowsTimes (M := 50000) (K := 128) (N := 64) (V c main_v47) (V c main_v32) :=
  (dat2 (F := Ideal) V c).arrAt_eq_of_cover 2 _ (fun t _ => flushed_eq V c t) cover

end Cert.KernelIdeal.Region2

end
-- ==== Proof.Region3.lean ====
/-
  Region 3 of the kernel adds a bias row and takes the positive part: the 50000-row array `main_v60` is cut into 25
  blocks of 2000 rows, the [1, 64] array `main_v61` is one block read whole at every grid point, and grid point t
  writes rows t·2000 … t·2000+1999 of `main_v62`.  The body broadcasts the row over the block's rows, adds, and takes
  the maximum with the zero float, so each written entry (t·2000+p, q) is max (main_v60(t·2000+p, q) + main_v61(0, q)) 0: the
  block of ONE whole-array function, `addRowRelu`.  The 25 blocks tile the result (row r lies in block r / 2000),
  so after the region the whole result array IS that function of the two arrays as the region found them.
  Nothing here depends on the float instance beyond the operations' names; it is stated at the ideal one.
-/
import proofs.«119363_j44135083933971_1_alg».proof.Proof.Gen.KernelIdeal.Frame
import Idealize.ShloMosaic.Lib.Pipeline.Value
import Idealize.ShloMosaic.Lib.ValueLayout
import proofs.«119363_j44135083933971_1_alg».proof.Proof.Spec

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's one stored value at entry (p, q) of its block: the larger of block(p, q) + row(0, q) and zero. -/
theorem pay_apply (x : FVec Ideal S2000x64 .f32) (b : FVec Ideal S1x64 .f32) (j : S2000x64.Idx) :
    k3_pay1 (F := Ideal) x b j
      = FloatOps.maximumf (FloatOps.addf (x j) (b (ix2 (0 : Fin 1) (⟨(j 1).val, idx2_lt1 j⟩ : Fin 64))))
          (FloatOps.ofBits .f32 0x00000000#32) := by
  obtain ⟨p, q, rfl⟩ : ∃ (p : Fin 2000) (q : Fin 64), j = ix2 p q := ⟨j 0, j 1, eq_ix2 j⟩
  unfold k3_pay1
  rw [shapeCast_self, shapeCast_self]
  show FloatOps.maximumf (F := Ideal) (FloatOps.addf (x (ix2 p q)) (broadcastTo S2000x64 b broadcasts_S1x64_S2000x64 (ix2 p q)))
    (FloatOps.ofBits .f32 0x00000000#32) = _
  rw [broadcastTo_1b_ab_apply]

/-- Where the index maps send grid point t: the first operand's and the result's block t of rows, the row
    operand's one block (decided over the 25 points). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first operand's block at point t, at (p, q), is the array at row t·2000+p, column q. -/
theorem read_arr (c : Dev nD) (t : Fin cfg3.N) (y : S2000x64.Idx) (i : S50000x64.Idx)
    (h0 : (i 0).val = t.val * 2000 + (y 0).val) (h1 : (i 1).val = (y 1).val) :
    iblk3 V c 0 t y = V c main_v60 i := by
  show V c main_v60 (((cfg3.win 0).blk t).view.emb y) = V c main_v60 i
  refine congrArg _ (funext fun a => Fin.ext ?_)
  obtain ⟨e0, e1, -⟩ := idx_facts t
  match a with
  | ⟨0, _⟩ => show win3_0.index t (0 : Fin 2) * 2000 + 1 * (y 0).val = (i 0).val; omega
  | ⟨1, _⟩ => show win3_0.index t (1 : Fin 2) * 64 + 1 * (y 1).val = (i 1).val; omega

/-- The row operand's one block is the whole [1, 64] array. -/
theorem read_row (c : Dev nD) (t : Fin cfg3.N) (y : S1x64.Idx) (i : S1x64.Idx)
    (h0 : (i 0).val = (y 0).val) (h1 : (i 1).val = (y 1).val) :
    iblk3 V c 1 t y = V c main_v61 i := by
  show V c main_v61 (((cfg3.win 1).blk t).view.emb y) = V c main_v61 i
  refine congrArg _ (funext fun a => Fin.ext ?_)
  obtain ⟨-, -, e2, e3, -⟩ := idx_facts t
  match a with
  | ⟨0, _⟩ => show win3_1.index t (0 : Fin 2) * 1 + 1 * (y 0).val = (i 0).val; omega
  | ⟨1, _⟩ => show win3_1.index t (1 : Fin 2) * 64 + 1 * (y 1).val = (i 1).val; omega

/-- WHAT POINT t WRITES BACK is block t of `addRowRelu` of the two arrays as the region finds them. -/
theorem flushed_eq (c : Dev nD) (t : Fin cfg3.N) :
    (dat3 (F := Ideal) V c).flushed 2 t
      = ((cfg3.win 2).blk t).view.read (Elt Ideal) (addRowRelu (F := Ideal) (M := 50000) (N := 64) (V c main_v60) (V c main_v61)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨-, -, -, -, e4, e5⟩ := idx_facts t
  funext j
  refine (pay_apply (iblk3 V c 0 t) (iblk3 V c 1 t) j).trans ?_
  show _ = addRowRelu (F := Ideal) (M := 50000) (N := 64) (V c main_v60) (V c main_v61) (((cfg3.win 2).blk t).view.emb j)
  unfold addRowRelu
  have hj0 : (j 0).val < 2000 := (j 0).isLt
  have hj1 : (j 1).val < 64 := (j 1).isLt
  have hr : ((((cfg3.win 2).blk t).view.emb j) 0).val = t.val * 2000 + (j 0).val := by
    show win3_2.index t (0 : Fin 2) * 2000 + 1 * (j 0).val = _; omega
  have hc : ((((cfg3.win 2).blk t).view.emb j) 1).val = (j 1).val := by
    show win3_2.index t (1 : Fin 2) * 64 + 1 * (j 1).val = _; omega
  have e1 := read_arr V c t j (((cfg3.win 2).blk t).view.emb j) hr hc
  have e2 := read_row V c t (ix2 (0 : Fin 1) (⟨(j 1).val, hj1⟩ : Fin 64))
    (ix2 (0 : Fin 1) ⟨((((cfg3.win 2).blk t).view.emb j) 1).val, idx2_lt1 _⟩) rfl hc
  rw [e1, e2]

/-- An index of the result is in point t's block iff each coordinate is in the block's range on its axis. -/
theorem mem_blk (t : Fin cfg3.N) (i : S50000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v62).slice (win3_2.rect t)).set ↔ _
  rw [View.set_slice_whole, Rect.mem_set_unit]
  exact Iff.rfl

/-- The blocks tile the result: row r lies in the block of point r / 2000. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 25 := N_3
  have hlt : (i 0).val / 2000 < cfg3.N := by show (i 0).val / 2000 < grid3.N; omega
  refine ⟨⟨(i 0).val / 2000, hlt⟩, flush3_2 _, ?_⟩
  rw [mem_blk]
  obtain ⟨-, -, -, -, e4, e5⟩ := idx_facts ⟨(i 0).val / 2000, hlt⟩
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, hlt⟩ (1 : Fin 2) * 64 ≤ (i 1).val
      ∧ (i 1).val < win3_2.index ⟨(i 0).val / 2000, hlt⟩ (1 : Fin 2) * 64 + 64
    rw [e5]; omega

/-- THE RESULT ARRAY after the region: the row added to every row of the first array, then the positive part. -/
theorem arr (c : Dev nD) :
    (dat3 (F := Ideal) V c).arrAt 2 cfg3.N = addRowRelu (F := Ideal) (M := 50000) (N := 64) (V c main_v60) (V c main_v61) :=
  (dat3 (F := Ideal) V c).arrAt_eq_of_cover 2 _ (fun t _ => flushed_eq V c t) cover

end Cert.KernelIdeal.Region3

end
-- ==== Proof.Layers.lean ====
/-
  The kernel's result as a function of its arguments: the buffer contents are followed from the first region's entry
  to the last region's exit, and at every boundary the buffer the next stage reads is shown to hold the reference's
  stage of the same meaning, applied to the kernel's own arguments.
    · region 0 leaves X·W₁ in `main_v33` (the tiled product is the whole product; rounding W₁ is the identity);
    · the host stretch after it gathers those rows at every edge's source, scales each by the edge's normalisation and
      scatter-adds them at the edge's destination — the reference's operations on the same operands, so `main_v45`
      holds the reference's aggregate; the bias vector is reshaped to a row;
    · region 1 adds the bias row and takes the positive part: the reference's first layer output, in `main_v47`;
    · region 2 multiplies that by the (rounded) W₂: the reference's second product, in `main_v48`;
    · the next host stretch aggregates again with the SAME normalisation column (the reference recomputes it, to the same
      term), and region 3 adds the second bias and takes the positive part: the reference's result, in `main_v62`.
  A buffer that a stage reads but that was written several segments earlier (the index lists, the normalisation, W₂, the
  biases) is carried unchanged: a region changes only its own arrays, a host stretch only the buffers its operations write.
-/
import proofs.«119363_j44135083933971_1_alg».proof.Proof.Entry
import proofs.«119363_j44135083933971_1_alg».proof.Proof.Bridge
import proofs.«119363_j44135083933971_1_alg».proof.Proof.Region0
import proofs.«119363_j44135083933971_1_alg».proof.Proof.Region1
import proofs.«119363_j44135083933971_1_alg».proof.Proof.Region2
import proofs.«119363_j44135083933971_1_alg».proof.Proof.Region3

set_option maxRecDepth 16384

noncomputable section

namespace Cert.KernelIdeal.Layers

open Cert.KernelIdeal Cert.KernelIdeal.Gen Idealize.ShloMosaic Idealize.ShloMosaic.TcCoe Idealize.SL.Sem
open Idealize.ShloMosaic.StableHlo
open Cert.ReferenceIdeal.Read (val_main_v3 val_main_v6 val_main_v38 val_main_v7 val_main_v43 val_main_v46 val_main_v47 val_main_v48
  val_main_v84 val_main_v81 val_main_v80 val_main_v87 val_main_v88)
open Cert.Spec

variable (m : (ℓ : Loc nD τ sig) → Buf (Elt Ideal) ℓ) (ρ : Dev nD → PrngReg) (c : Dev nD)

/-- A stretch of host operations leaves alone a buffer none of its operations writes. -/
macro "host_keeps" : tactic => `(tactic| (
  refine StableHlo.after_of_forall_not_mem _ _ (List.forall_iff_forall_mem.mp ?_)
  simp only [hostOps1, hostOps3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After region 0 -/

theorem src4 : W4 m ρ c (Proc.devRef .tc main_v3) = val_main_v3 (F := Ideal) (m ((c.tc : Thread nD τ).loc main_arg1)) :=
  (W4_of_ne m ρ c main_v3 (by decide)).trans (Entry.src m ρ c)
theorem dst4 : W4 m ρ c (Proc.devRef .tc main_v6) = val_main_v6 (F := Ideal) (m ((c.tc : Thread nD τ).loc main_arg1)) :=
  (W4_of_ne m ρ c main_v6 (by decide)).trans (Entry.dst m ρ c)
theorem norm4 : W4 m ρ c (Proc.devRef .tc main_v30) = val_main_v38 (F := Ideal) (m ((c.tc : Thread nD τ).loc main_arg1)) :=
  (W4_of_ne m ρ c main_v30 (by decide)).trans (Entry.norm m ρ c)
theorem w2_4 : W4 m ρ c (Proc.devRef .tc main_v32) = truncf (F := Ideal) .bf16 (m ((c.tc : Thread nD τ).loc main_arg4)) bitsLt_bf16_f32 :=
  (W4_of_ne m ρ c main_v32 (by decide)).trans (Entry.w2 m ρ c)
theorem b1_4 : W4 m ρ c (Proc.devRef .tc main_arg3) = (m ((c.tc : Thread nD τ).loc main_arg3)) :=
  (W4_of_ne m ρ c main_arg3 (by decide)).trans (Entry.b1 m ρ c)
theorem b2_4 : W4 m ρ c (Proc.devRef .tc main_arg5) = (m ((c.tc : Thread nD τ).loc main_arg5)) :=
  (W4_of_ne m ρ c main_arg5 (by decide)).trans (Entry.b2 m ρ c)

/-- Region 0's result: the features times the first weights. -/
theorem lin1 : W4 m ρ c (Proc.devRef .tc main_v33) = val_main_v7 (F := Ideal) (m ((c.tc : Thread nD τ).loc main_arg0)) (m ((c.tc : Thread nD τ).loc main_arg2)) := by
  refine (W4_arr m ρ c 2).trans ((Region0.arr (V3 m ρ) c).trans ?_)
  show rowsTimes (M := 50000) (K := 512) (N := 128) (W3 m ρ c (Proc.devRef .tc main_arg0)) (W3 m ρ c (Proc.devRef .tc main_v31)) = _
  rw [Entry.x, Entry.w1]
  exact Cert.ReferenceIdeal.Bridge.product1 _ _ _

/-! ## After the host stretch between regions 0 and 1 -/

/-- The first layer's aggregate over the edges. -/
theorem agg1 : W5 m ρ c (Proc.devRef .tc main_v45) = val_main_v43 (F := Ideal) (m ((c.tc : Thread nD τ).loc main_arg0)) (m ((c.tc : Thread nD τ).loc main_arg1)) (m ((c.tc : Thread nD τ).loc main_arg2)) := by
  have h3 := src4 m ρ c
  have h6 := dst4 m ρ c
  have h30 := norm4 m ρ c
  have h33 := lin1 m ρ c
  show StableHlo.after hostOps1 (W4 m ρ c) (Proc.devRef .tc main_v45) = _
  generalize W4 m ρ c = U at h3 h6 h30 h33 ⊢
  dsimp only [hostOps1]
  after_results_simp
  rw [h3, h6, h30, h33]
  rfl

/-- The first bias as a row. -/
theorem bias1 : W5 m ρ c (Proc.devRef .tc main_v46) = shapeCast S1x128 (m ((c.tc : Thread nD τ).loc main_arg3)) shapeCasts_S128_S1x128 := by
  have h := b1_4 m ρ c
  show StableHlo.after hostOps1 (W4 m ρ c) (Proc.devRef .tc main_v46) = _
  generalize W4 m ρ c = U at h ⊢
  dsimp only [hostOps1]
  after_results_simp
  rw [h]
  rfl

theorem src5 : W5 m ρ c (Proc.devRef .tc main_v3) = val_main_v3 (F := Ideal) (m ((c.tc : Thread nD τ).loc main_arg1)) :=
  (show StableHlo.after hostOps1 (W4 m ρ c) (Proc.devRef .tc main_v3) = W4 m ρ c (Proc.devRef .tc main_v3) by host_keeps).trans (src4 m ρ c)
theorem dst5 : W5 m ρ c (Proc.devRef .tc main_v6) = val_main_v6 (F := Ideal) (m ((c.tc : Thread nD τ).loc main_arg1)) :=
  (show StableHlo.after hostOps1 (W4 m ρ c) (Proc.devRef .tc main_v6) = W4 m ρ c (Proc.devRef .tc main_v6) by host_keeps).trans (dst4 m ρ c)
theorem norm5 : W5 m ρ c (Proc.devRef .tc main_v30) = val_main_v38 (F := Ideal) (m ((c.tc : Thread nD τ).loc main_arg1)) :=
  (show StableHlo.after hostOps1 (W4 m ρ c) (Proc.devRef .tc main_v30) = W4 m ρ c (Proc.devRef .tc main_v30) by host_keeps).trans (norm4 m ρ c)
theorem w2_5 : W5 m ρ c (Proc.devRef .tc main_v32) = truncf (F := Ideal) .bf16 (m ((c.tc : Thread nD τ).loc main_arg4)) bitsLt_bf16_f32 :=
  (show StableHlo.after hostOps1 (W4 m ρ c) (Proc.devRef .tc main_v32) = W4 m ρ c (Proc.devRef .tc main_v32) by host_keeps).trans (w2_4 m ρ c)
theorem b2_5 : W5 m ρ c (Proc.devRef .tc main_arg5) = (m ((c.tc : Thread nD τ).loc main_arg5)) :=
  (show StableHlo.after hostOps1 (W4 m ρ c) (Proc.devRef .tc main_arg5) = W4 m ρ c (Proc.devRef .tc main_arg5) by host_keeps).trans (b2_4 m ρ c)

/-! ## After region 1 -/

/-- Region 1's result: the first layer's output. -/
theorem layer1 : W6 m ρ c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((Region1.arr (V5 m ρ) c).trans ?_)
  show addRowRelu (F := Ideal) (M := 50000) (N := 128) (W5 m ρ c (Proc.devRef .tc main_v45)) (W5 m ρ c (Proc.devRef .tc main_v46)) = _
  rw [agg1, bias1]
  exact (Cert.ReferenceIdeal.Bridge.biasRelu1 _ _ _).trans rfl

theorem src6 : W6 m ρ c (Proc.devRef .tc main_v3) = val_main_v3 (F := Ideal) (m ((c.tc : Thread nD τ).loc main_arg1)) :=
  (W6_of_ne m ρ c main_v3 (by decide)).trans (src5 m ρ c)
theorem dst6 : W6 m ρ c (Proc.devRef .tc main_v6) = val_main_v6 (F := Ideal) (m ((c.tc : Thread nD τ).loc main_arg1)) :=
  (W6_of_ne m ρ c main_v6 (by decide)).trans (dst5 m ρ c)
theorem norm6 : W6 m ρ c (Proc.devRef .tc main_v30) = val_main_v38 (F := Ideal) (m ((c.tc : Thread nD τ).loc main_arg1)) :=
  (W6_of_ne m ρ c main_v30 (by decide)).trans (norm5 m ρ c)
theorem w2_6 : W6 m ρ c (Proc.devRef .tc main_v32) = truncf (F := Ideal) .bf16 (m ((c.tc : Thread nD τ).loc main_arg4)) bitsLt_bf16_f32 :=
  (W6_of_ne m ρ c main_v32 (by decide)).trans (w2_5 m ρ c)
theorem b2_6 : W6 m ρ c (Proc.devRef .tc main_arg5) = (m ((c.tc : Thread nD τ).loc main_arg5)) :=
  (W6_of_ne m ρ c main_arg5 (by decide)).trans (b2_5 m ρ c)

/-! ## After region 2 -/

/-- Region 2's result: the first layer's output times the second weights. -/
theorem lin2 : W7 m ρ c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ((Region2.arr (V6 m ρ) c).trans ?_)
  show rowsTimes (M := 50000) (K := 128) (N := 64) (W6 m ρ c (Proc.devRef .tc main_v47)) (W6 m ρ c (Proc.devRef .tc main_v32)) = _
  rw [layer1, w2_6]
  exact (Cert.ReferenceIdeal.Bridge.product2 _ _ _).trans rfl

theorem src7 : W7 m ρ c (Proc.devRef .tc main_v3) = val_main_v3 (F := Ideal) (m ((c.tc : Thread nD τ).loc main_arg1)) :=
  (W7_of_ne m ρ c main_v3 (by decide)).trans (src6 m ρ c)
theorem dst7 : W7 m ρ c (Proc.devRef .tc main_v6) = val_main_v6 (F := Ideal) (m ((c.tc : Thread nD τ).loc main_arg1)) :=
  (W7_of_ne m ρ c main_v6 (by decide)).trans (dst6 m ρ c)
theorem norm7 : W7 m ρ c (Proc.devRef .tc main_v30) = val_main_v38 (F := Ideal) (m ((c.tc : Thread nD τ).loc main_arg1)) :=
  (W7_of_ne m ρ c main_v30 (by decide)).trans (norm6 m ρ c)
theorem b2_7 : W7 m ρ c (Proc.devRef .tc main_arg5) = (m ((c.tc : Thread nD τ).loc main_arg5)) :=
  (W7_of_ne m ρ c main_arg5 (by decide)).trans (b2_6 m ρ c)

/-! ## After the host stretch between regions 2 and 3 -/

/-- The second layer's aggregate over the edges: the reference scales by a normalisation it computes again, which is
    the first one. -/
theorem agg2 : W8 m ρ c (Proc.devRef .tc main_v60) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h3 := src7 m ρ c
  have h6 := dst7 m ρ c
  have h30 := norm7 m ρ c
  have h48 := lin2 m ρ c
  show StableHlo.after hostOps3 (W7 m ρ c) (Proc.devRef .tc main_v60) = _
  generalize W7 m ρ c = U at h3 h6 h30 h48 ⊢
  dsimp only [hostOps3]
  after_results_simp
  rw [h3, h6, h30, h48]
  unfold val_main_v84 val_main_v81 val_main_v80
  rw [Cert.ReferenceIdeal.Bridge.norm_again]
  rfl

/-- The second bias as a row. -/
theorem bias2 : W8 m ρ c (Proc.devRef .tc main_v61) = shapeCast S1x64 (m ((c.tc : Thread nD τ).loc main_arg5)) shapeCasts_S64_S1x64 := by
  have h := b2_7 m ρ c
  show StableHlo.after hostOps3 (W7 m ρ c) (Proc.devRef .tc main_v61) = _
  generalize W7 m ρ c = U at h ⊢
  dsimp only [hostOps3]
  after_results_simp
  rw [h]
  rfl

/-! ## After region 3 -/

/-- THE RESULT: what the last boundary holds in the result buffer is the reference's result stage of the kernel's own
    arguments. -/
theorem result : W9 m ρ c (Proc.devRef .tc main_v62)
    = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((Region3.arr (V8 m ρ) c).trans ?_)
  show addRowRelu (F := Ideal) (M := 50000) (N := 64) (W8 m ρ c (Proc.devRef .tc main_v60)) (W8 m ρ c (Proc.devRef .tc main_v61)) = _
  rw [agg2, bias2]
  exact (Cert.ReferenceIdeal.Bridge.biasRelu2 _ _ _).trans rfl

end Cert.KernelIdeal.Layers

end
-- ==== Proof.lean ====
/-
  Two stacked graph-convolution layers with a positive part after each, h ↦ max (D^(-1/2) (A + I) D^(-1/2) h W + b) 0, on
  50000 nodes and 800000 edges plus the self loops.  The kernel computes the two dense products X·W₁ and H₁·W₂ and the two
  "add the bias, take the positive part" steps in four tiled regions (25 blocks of 2000 rows each), with the weights
  rounded to a narrower float format on the way into the products; the degree, the edges' normalisation, the gathers at
  the edges' sources and the scatter-adds at their destinations are host operations, the same ones the reference uses.

  Read at the ideal instance — floats as extended reals, every operation exact, a change of format the identity — the
  two programs are one function of the arguments:
    · a region's 25 row blocks tile its result, and each block is the block of one whole-array function of the region's
      operands, so a tiled product IS the product and a tiled bias-and-positive-part IS the whole one;
    · the rounded weights are the weights;
    · the kernel's product into a zero accumulator and the reference's `dot_general` are both the sum over the contracted
      index; the kernel's bias row (the vector reshaped to one row and broadcast by the body) and the reference's bias
      (the vector broadcast twice) both read b(j) at entry (i, j);
    · every host operation in between is applied by both programs to operands already shown equal; the reference
      recomputes the normalisation for the second layer, to the same term.
  No algebraic law of the extended reals is needed (no sum is reordered or distributed), so the precondition that the
  float inputs are finite is never opened.  Nothing was rewritten by the idealization, so `preserves` is trivial.
  The frames of the two kernel programs are the generated ones; the reference's frame is its run with the result dropped.
-/
import proofs.«119363_j44135083933971_1_alg».proof.Defs
import proofs.«119363_j44135083933971_1_alg».proof.Proof.Gen.Kernel
import proofs.«119363_j44135083933971_1_alg».proof.Proof.Gen.Kernel.Frame
import proofs.«119363_j44135083933971_1_alg».proof.Proof.Gen.KernelIdeal
import proofs.«119363_j44135083933971_1_alg».proof.Proof.Gen.KernelIdeal.Frame
import proofs.«119363_j44135083933971_1_alg».proof.Proof.Gen.ReferenceIdeal
import proofs.«119363_j44135083933971_1_alg».proof.Proof.Gen.Pre_finite_inputs
import proofs.«119363_j44135083933971_1_alg».proof.Proof.KernelRun
import proofs.«119363_j44135083933971_1_alg».proof.Proof.Layers
import proofs.«119363_j44135083933971_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result stage of the (shared) arguments in their result arrays. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layers.result m ρ c), (h c).2⟩)
      (Cert.KernelIdeal.Whole.run_result m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v88_eq m' c).trans ?_)
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
